-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S5000x128 : Shape := ⟨2, ![5000, 128]⟩
abbrev S1x128 : Shape := ⟨2, ![1, 128]⟩

abbrev nBuf : Space → Nat
  | .hbm => 85
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S640000, .i1⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000, .f32⟩
  | .hbm, ⟨47, _⟩ => ⟨S640000, .f32⟩
  | .hbm, ⟨48, _⟩ => ⟨S640000, .f32⟩
  | .hbm, ⟨49, _⟩ => ⟨S640000x1, .f32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S640000x128, .f32⟩
  | .hbm, ⟨60, _⟩ => ⟨S640000x128, .f32⟩
  | .hbm, ⟨61, _⟩ => ⟨S_, .f32⟩
  | .hbm, ⟨62, _⟩ => ⟨S100000x128, .f32⟩
  | .hbm, ⟨63, _⟩ => ⟨S640000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S640000x1, .f32⟩
  | .hbm, ⟨68, _⟩ => ⟨S_, .i32⟩
  | .hbm, ⟨69, _⟩ => ⟨S640000, .i32⟩
  | .hbm, ⟨70, _⟩ => ⟨S640000, .i1⟩
  | .hbm, ⟨71, _⟩ => ⟨S_, .i32⟩
  | .hbm, ⟨72, _⟩ => ⟨S640000, .i32⟩
  | .hbm, ⟨73, _⟩ => ⟨S640000, .i32⟩
  | .hbm, ⟨74, _⟩ => ⟨S640000, .i32⟩
  | .hbm, ⟨75, _⟩ => ⟨S640000x1, .i32⟩
  | .hbm, ⟨76, _⟩ => ⟨S640000x128, .f32⟩
  | .hbm, ⟨77, _⟩ => ⟨S640000x128, .f32⟩
  | .hbm, ⟨78, _⟩ => ⟨S640000x128, .f32⟩
  | .hbm, ⟨79, _⟩ => ⟨S_, .f32⟩
  | .hbm, ⟨80, _⟩ => ⟨S100000x128, .f32⟩
  | .hbm, ⟨81, _⟩ => ⟨S640000x1, .i32⟩
  | .hbm, ⟨82, _⟩ => ⟨S100000x128, .f32⟩
  | .hbm, ⟨83, _⟩ => ⟨S100000x128, .f32⟩
  | .hbm, ⟨84, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S100000 : S_.BroadcastsInDim S100000 (![] : Fin 0 → Fin S100000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S640000, .i1⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000, .f32⟩
  | .hbm, ⟨47, _⟩ => ⟨S640000, .f32⟩
  | .hbm, ⟨48, _⟩ => ⟨S640000, .f32⟩
  | .hbm, ⟨49, _⟩ => ⟨S640000x1, .f32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S640000x128, .f32⟩
  | .hbm, ⟨60, _⟩ => ⟨S640000x128, .f32⟩
  | .hbm, ⟨61, _⟩ => ⟨S_, .f32⟩
  | .hbm, ⟨62, _⟩ => ⟨S100000x128, .f32⟩
  | .hbm, ⟨63, _⟩ => ⟨S640000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S640000x1, .f32⟩
  | .hbm, ⟨76, _⟩ => ⟨S_, .i32⟩
  | .hbm, ⟨77, _⟩ => ⟨S640000, .i32⟩
  | .hbm, ⟨78, _⟩ => ⟨S640000, .i1⟩
  | .hbm, ⟨79, _⟩ => ⟨S_, .i32⟩
  | .hbm, ⟨80, _⟩ => ⟨S640000, .i32⟩
  | .hbm, ⟨81, _⟩ => ⟨S640000, .i32⟩
  | .hbm, ⟨82, _⟩ => ⟨S640000, .i32⟩
  | .hbm, ⟨83, _⟩ => ⟨S640000x1, .i32⟩
  | .hbm, ⟨84, _⟩ => ⟨S640000x128, .f32⟩
  | .hbm, ⟨85, _⟩ => ⟨S640000x128, .f32⟩
  | .hbm, ⟨86, _⟩ => ⟨S640000x128, .f32⟩
  | .hbm, ⟨87, _⟩ => ⟨S_, .f32⟩
  | .hbm, ⟨88, _⟩ => ⟨S100000x128, .f32⟩
  | .hbm, ⟨89, _⟩ => ⟨S640000x1, .i32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call2_cst : Ref sig .tc := ⟨.hbm, 98, rfl⟩
abbrev main_call2_v0 : Ref sig .tc := ⟨.hbm, 99, rfl⟩
abbrev main_v72 : Ref sig .tc := ⟨.hbm, 100, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S100000 : S_.BroadcastsInDim S100000 (![] : Fin 0 → Fin S100000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The two-layer program's run with its result named.

  The program is five stretches: host operations (the edge normalisation and the first propagation), the first layer's
  tiled region, host operations (the second propagation), the second layer's tiled region. The generated frame folds the
  buffer contents through these stretches (`Gen.W0` … `Gen.W6`) and runs the program against that fold; its stated
  post keeps only the argument arrays. Here the same run is read once more at the result buffer: every weakly fair
  execution ends with the result array at the fold's last contents `Gen.W6` of that buffer, the arguments unchanged.
-/
import proofs.«112114_j34772055229173_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_result : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.Layer.lean ====
/-
  One Chebyshev graph-convolution layer (order two), entry by entry, on the extended reals.

  For a node-feature matrix `x` (N × 128), its propagated copy `t` (the graph operator applied to `x`, N × 128),
  two weight matrices `w0`, `w1` (128 × 128) and a bias `b` (128), the layer's output at node `r` and feature `c` is

      max ( ∑ₖ x(r,k)·w0(k,c)  +  ∑ₖ t(r,k)·w1(k,c)  +  b(c) ,  0 ).

  The entry depends on row `r` of `x` and of `t`, on column `c` of the two weight matrices and on `b(c)`; nothing in it
  refers to how the rows are grouped, so a tiling of the rows computes it tile by tile. No algebraic law is used
  between the two programs: both spell the sums, the two additions and the maximum in this order.
-/
import Idealize.ShloMosaic.PureOps.Ideal
import Idealize.ShloMosaic.Lib.ValueIdx

noncomputable section

namespace Cert.Cheb

open Idealize.ShloMosaic Idealize.ShloMosaic.ValueIdx

/-- The zero word of the 32-bit format, as an extended real. -/
abbrev zeroWord : EReal := Ideal.ofBits .f32 0x00000000#32

/-- Entry `(i 0, i 1)` of one layer over `n` nodes. -/
def layer {n : Nat} (x t : (⟨2, ![n, 128]⟩ : Shape).Idx → EReal) (w0 w1 : (⟨2, ![128, 128]⟩ : Shape).Idx → EReal)
    (b : (⟨1, ![128]⟩ : Shape).Idx → EReal) : (⟨2, ![n, 128]⟩ : Shape).Idx → EReal := fun i =>
  max ((∑ k : Fin 128, x (ix2 (i 0) k) * w0 (ix2 k (i 1))) + (∑ k : Fin 128, t (ix2 (i 0) k) * w1 (ix2 k (i 1)))
    + b (ix1 (i 1))) zeroWord

/-- The entry, with the row and column named. -/
theorem layer_apply {n : Nat} (x t : (⟨2, ![n, 128]⟩ : Shape).Idx → EReal) (w0 w1 : (⟨2, ![128, 128]⟩ : Shape).Idx → EReal)
    (b : (⟨1, ![128]⟩ : Shape).Idx → EReal) (r : Fin n) (c : Fin 128) :
    layer x t w0 w1 b (ix2 r c)
      = max ((∑ k : Fin 128, x (ix2 r k) * w0 (ix2 k c)) + (∑ k : Fin 128, t (ix2 r k) * w1 (ix2 k c)) + b (ix1 c)) zeroWord := rfl

end Cert.Cheb

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.KernelLayer.lean ====
/-
  What the tiled kernel's body computes: one layer on its tile of rows.

  The body loads a tile of 5000 rows of the node features `X` and of their propagated copy `T`, the two 128 × 128
  weight matrices and the bias, and stores
      max (X·W0 + T·W1 + (bias along the rows), 0)
  — the two products each accumulated into the zero matrix, the narrowing of the operands to the 16-bit format being
  the identity on extended reals. Entry `(p, q)` of the stored tile is therefore `Cheb.layer` over 5000 rows at `(p, q)`.
  The two regions' bodies differ only in one more identity reshape of the first operand.

  A tile's entry equals the whole matrix's entry at the corresponding row whenever the tile's rows are the matrix's
  rows there (`layer_tile`): the entry reads one row of each feature matrix and one column of each weight matrix.
-/
import proofs.«112114_j34772055229173_1_alg».proof.Proof.Gen.KernelIdeal.Skeleton
import proofs.«112114_j34772055229173_1_alg».proof.Proof.Layer
import proofs.«112114_j34772055229173_1_alg».proof.Proof.LibPlainDot
import Idealize.ShloMosaic.Lib.Pipeline.Value

noncomputable section

namespace Cert.Cheb

open Idealize.ShloMosaic Idealize.ShloMosaic.ValueIdx

/-- An entry of the layer over `n` rows is the entry of the layer over `N` rows at a row and column where the
    operands agree: the row of `x` and of `t`, the column of the weights, the bias at the column. -/
theorem layer_tile {n N : Nat} (X T : (⟨2, ![n, 128]⟩ : Shape).Idx → EReal) (x t : (⟨2, ![N, 128]⟩ : Shape).Idx → EReal)
    (W0 W1 w0 w1 : (⟨2, ![128, 128]⟩ : Shape).Idx → EReal) (B b : (⟨1, ![128]⟩ : Shape).Idx → EReal)
    (j : (⟨2, ![n, 128]⟩ : Shape).Idx) (i : (⟨2, ![N, 128]⟩ : Shape).Idx)
    (hX : ∀ k : Fin 128, X (ix2 (j 0) k) = x (ix2 (i 0) k)) (hT : ∀ k : Fin 128, T (ix2 (j 0) k) = t (ix2 (i 0) k))
    (hW0 : ∀ k : Fin 128, W0 (ix2 k (j 1)) = w0 (ix2 k (i 1))) (hW1 : ∀ k : Fin 128, W1 (ix2 k (j 1)) = w1 (ix2 k (i 1)))
    (hB : B (ix1 (j 1)) = b (ix1 (i 1))) :
    layer X T W0 W1 B j = layer x t w0 w1 b i := by
  have e0 : (∑ k : Fin 128, X (ix2 (j 0) k) * W0 (ix2 k (j 1))) = ∑ k : Fin 128, x (ix2 (i 0) k) * w0 (ix2 k (i 1)) :=
    Finset.sum_congr rfl fun k _ => by rw [hX k, hW0 k]
  have e1 : (∑ k : Fin 128, T (ix2 (j 0) k) * W1 (ix2 k (j 1))) = ∑ k : Fin 128, t (ix2 (i 0) k) * w1 (ix2 k (i 1)) :=
    Finset.sum_congr rfl fun k _ => by rw [hT k, hW1 k]
  unfold layer
  rw [e0, e1, hB]

end Cert.Cheb

namespace Cert.KernelIdeal.Layers

open Cert.KernelIdeal Cert.KernelIdeal.Gen
open Idealize.ShloMosaic Idealize.ShloMosaic.ValueIdx

/-- The bias, cast to one row and broadcast down the tile, read at an entry: the bias at the entry's column. -/
theorem tileBias_apply (B : Vec Ideal S128 .f32) (p : Fin 5000) (q : Fin 128) :
    broadcastTo S5000x128 (shapeCast S1x128 B shapeCasts_S128_S1x128) broadcasts_S1x128_S5000x128 (ix2 p q) = B (ix1 q) := by
  rw [broadcastTo_apply _ broadcasts_S1x128_S5000x128 (ix2 p q)
    ((fun a => match a with | ⟨0, _⟩ => ⟨0, Nat.one_pos⟩ | ⟨1, _⟩ => ⟨q.val, q.isLt⟩ : S1x128.Idx)) (fun a => match a with
      | ⟨0, _⟩ => by show 0 = if (1 : Nat) = 1 then 0 else _; rw [if_pos rfl]
      | ⟨1, _⟩ => by show q.val = if (128 : Nat) = 1 then 0 else q.val; rw [if_neg (by decide)])]
  refine (shapeCast_addUnit_apply (n := 1) ![128] B shapeCasts_S128_S1x128 _).trans ?_
  exact congrArg B (funext fun a => match a with | ⟨0, _⟩ => rfl)

/-- Region 0's body stores the layer of its tile. -/
theorem pay0_layer (X T : Vec Ideal S5000x128 .f32) (W0 W1 : Vec Ideal S128x128 .f32) (B : Vec Ideal S128 .f32) :
    k0_pay1 (F := Ideal) X T W0 W1 B = Cheb.layer (n := 5000) X T W0 W1 B := by
  funext j
  obtain ⟨p, q, rfl⟩ : ∃ (p : Fin 5000) (q : Fin 128), j = ix2 p q := ⟨j 0, j 1, eq_ix2 j⟩
  rw [Cheb.layer_apply]
  show max (matmul dot_S5000x128_S128x128_S5000x128_1_0_0_1_n_n none (truncf .bf16 X bitsLt_bf16_f32) (truncf .bf16 W0 bitsLt_bf16_f32) (constant (F := Ideal) S5000x128 .f32 0x00000000#32) (ix2 p q)
        + matmul dot_S5000x128_S128x128_S5000x128_1_0_0_1_n_n none (truncf .bf16 (shapeCast S5000x128 T shapeCasts_S5000x128_S5000x128) bitsLt_bf16_f32) (truncf .bf16 W1 bitsLt_bf16_f32) (constant (F := Ideal) S5000x128 .f32 0x00000000#32) (ix2 p q)
        + broadcastTo S5000x128 (shapeCast S1x128 B shapeCasts_S128_S1x128) broadcasts_S1x128_S5000x128 (ix2 p q)) Cheb.zeroWord = _
  rw [PlainDot.matmul_zero_apply dot_S5000x128_S128x128_S5000x128_1_0_0_1_n_n rfl,
    PlainDot.matmul_zero_apply dot_S5000x128_S128x128_S5000x128_1_0_0_1_n_n rfl, tileBias_apply, shapeCast_self]
  rfl

/-- Region 1's body stores the layer of its tile. -/
theorem pay1_layer (X T : Vec Ideal S5000x128 .f32) (W0 W1 : Vec Ideal S128x128 .f32) (B : Vec Ideal S128 .f32) :
    k1_pay1 (F := Ideal) X T W0 W1 B = Cheb.layer (n := 5000) X T W0 W1 B := by
  funext j
  obtain ⟨p, q, rfl⟩ : ∃ (p : Fin 5000) (q : Fin 128), j = ix2 p q := ⟨j 0, j 1, eq_ix2 j⟩
  rw [Cheb.layer_apply]
  show max (matmul dot_S5000x128_S128x128_S5000x128_1_0_0_1_n_n none (truncf .bf16 (shapeCast S5000x128 X shapeCasts_S5000x128_S5000x128) bitsLt_bf16_f32) (truncf .bf16 W0 bitsLt_bf16_f32) (constant (F := Ideal) S5000x128 .f32 0x00000000#32) (ix2 p q)
        + matmul dot_S5000x128_S128x128_S5000x128_1_0_0_1_n_n none (truncf .bf16 (shapeCast S5000x128 T shapeCasts_S5000x128_S5000x128) bitsLt_bf16_f32) (truncf .bf16 W1 bitsLt_bf16_f32) (constant (F := Ideal) S5000x128 .f32 0x00000000#32) (ix2 p q)
        + broadcastTo S5000x128 (shapeCast S1x128 B shapeCasts_S128_S1x128) broadcasts_S1x128_S5000x128 (ix2 p q)) Cheb.zeroWord = _
  rw [PlainDot.matmul_zero_apply dot_S5000x128_S128x128_S5000x128_1_0_0_1_n_n rfl,
    PlainDot.matmul_zero_apply dot_S5000x128_S128x128_S5000x128_1_0_0_1_n_n rfl, tileBias_apply, shapeCast_self, shapeCast_self]
  rfl

end Cert.KernelIdeal.Layers

end
-- ==== Proof.KernelTiles.lean ====
/-
  From tiles to the whole array: after each tiled region, its output array is one layer of the arrays at its entry.

  A region runs its body at twenty grid points; point `t` reads rows `5000·t … 5000·t + 4999` of the two feature arrays,
  the whole weight matrices and the whole bias, and writes back rows `5000·t …` of the output. The body stores the layer
  of its tile (`pay0_layer`, `pay1_layer`), an entry of the layer depends on its own row of the features only
  (`Cheb.layer_tile`), and the twenty tiles cover the 100000 rows: so the output array ends as the layer of the whole
  arrays, whatever they are when the region is entered (`V`).
-/
import proofs.«112114_j34772055229173_1_alg».proof.Proof.Gen.KernelIdeal.Frame
import proofs.«112114_j34772055229173_1_alg».proof.Proof.KernelLayer

set_option maxRecDepth 16384

noncomputable section

namespace Cert.KernelIdeal.Layers

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0 -/

/-- The printed index maps of region 0, decided over its twenty grid points: the two feature windows move with the
    output window down the rows, every window starts at column 0, the weights and the bias stay at block 0. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (1 : Fin 2) = 0 :=
  (by decide +kernel : ∀ t : Fin grid0.N, _)

/-- Every block of rows is some grid point's. -/
theorem idx_onto0 : ∀ q0 : Fin 20, ∃ t : Fin cfg0.N, win0_5.index t = ![q0.val, 0] :=
  (by decide +kernel : ∀ q0 : Fin 20, ∃ t : Fin grid0.N, win0_5.index t = ![q0.val, 0])

/-- The layer of the arrays region 0 finds at its entry: features `main_arg0`, their propagation `main_v44`, the layer's
    weights and bias. -/
abbrev G0 (c : Dev nD) : S100000x128.Idx → EReal :=
  Cheb.layer (n := 100000) (V c main_arg0) (V c main_v44) (V c main_arg2) (V c main_arg3) (V c main_arg4)

/-- What grid point `t` writes back is its tile of rows of the layer of the whole arrays: the tile's rows of the two
    feature matrices are rows `5000·t + p` of the arrays, the weights and the bias are read whole. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  rw [pay0_layer]
  obtain ⟨e00, e01, e10, e11, e20, e21, e30, e31, e40, e51⟩ := idx_facts0 t
  funext j
  show Cheb.layer (n := 5000) (iblk0 V c 0 t) (iblk0 V c 1 t) (iblk0 V c 2 t) (iblk0 V c 3 t) (iblk0 V c 4 t) j
      = Cheb.layer (n := 100000) (V c main_arg0) (V c main_v44) (V c main_arg2) (V c main_arg3) (V c main_arg4) (((cfg0.win 5).blk t).view.emb j)
  refine Cheb.layer_tile _ _ _ _ _ _ _ _ _ _ j _ (fun k => ?_) (fun k => ?_) (fun k => ?_) (fun k => ?_) ?_
  · show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; rw [e00]
    | ⟨1, _⟩ => show win0_0.index t (1 : Fin 2) * 128 + 1 * k.val = k.val; rw [e01]; omega
  · show V c main_v44 (((cfg0.win 1).blk t).view.emb (ix2 (j 0) k)) = V c main_v44 (ix2 ((((cfg0.win 5).blk t).view.emb j) 0) k)
    refine congrArg (V c main_v44) (funext fun a => Fin.ext ?_)
    match a with
    | ⟨0, _⟩ => show win0_1.index t (0 : Fin 2) * 5000 + 1 * (j 0).val = win0_5.index t (0 : Fin 2) * 5000 + 1 * (j 0).val; rw [e10]
    | ⟨1, _⟩ => show win0_1.index t (1 : Fin 2) * 128 + 1 * k.val = k.val; rw [e11]; omega
  · show V c main_arg2 (((cfg0.win 2).blk t).view.emb (ix2 k (j 1))) = V c main_arg2 (ix2 k ((((cfg0.win 5).blk t).view.emb j) 1))
    refine congrArg (V c main_arg2) (funext fun a => Fin.ext ?_)
    match a with
    | ⟨0, _⟩ => show win0_2.index t (0 : Fin 2) * 128 + 1 * k.val = k.val; rw [e20]; omega
    | ⟨1, _⟩ => show win0_2.index t (1 : Fin 2) * 128 + 1 * (j 1).val = win0_5.index t (1 : Fin 2) * 128 + 1 * (j 1).val; rw [e21, e51]
  · show V c main_arg3 (((cfg0.win 3).blk t).view.emb (ix2 k (j 1))) = V c main_arg3 (ix2 k ((((cfg0.win 5).blk t).view.emb j) 1))
    refine congrArg (V c main_arg3) (funext fun a => Fin.ext ?_)
    match a with
    | ⟨0, _⟩ => show win0_3.index t (0 : Fin 2) * 128 + 1 * k.val = k.val; rw [e30]; omega
    | ⟨1, _⟩ => show win0_3.index t (1 : Fin 2) * 128 + 1 * (j 1).val = win0_5.index t (1 : Fin 2) * 128 + 1 * (j 1).val; rw [e31, e51]
  · show V c main_arg4 (((cfg0.win 4).blk t).view.emb (ix1 (j 1))) = V c main_arg4 (ix1 ((((cfg0.win 5).blk t).view.emb j) 1))
    refine congrArg (V c main_arg4) (funext fun a => Fin.ext ?_)
    match a with
    | ⟨0, _⟩ => show win0_4.index t (0 : Fin 1) * 128 + 1 * (j 1).val = win0_5.index t (1 : Fin 2) * 128 + 1 * (j 1).val; rw [e40, e51]

/-- An entry of the array is in point `t`'s tile iff its row and column are in the tile's ranges. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v45).slice (win0_5.rect t)).set ↔ _
  rw [View.set_slice_whole, Rect.mem_set_unit]
  exact Iff.rfl

/-- The tiles cover the array: row `r` lies in the tile of point `r / 5000`. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After region 0 its output array holds the layer of the arrays it found at its entry. -/
theorem final0 (c : Dev nD) : (dat0 V c).arrAt 5 cfg0.N = G0 V c :=
  (dat0 V c).arrAt_eq_of_cover 5 (G0 V c) (fun t _ => flushed0 V c t) cover0

/-! ## Region 1 -/

/-- The printed index maps of region 1, decided over its twenty grid points: the two feature windows move with the
    output window down the rows, every window starts at column 0, the weights and the bias stay at block 0. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (1 : Fin 2) = 0 :=
  (by decide +kernel : ∀ t : Fin grid1.N, _)

/-- Every block of rows is some grid point's. -/
theorem idx_onto1 : ∀ q0 : Fin 20, ∃ t : Fin cfg1.N, win1_5.index t = ![q0.val, 0] :=
  (by decide +kernel : ∀ q0 : Fin 20, ∃ t : Fin grid1.N, win1_5.index t = ![q0.val, 0])

/-- The layer of the arrays region 1 finds at its entry: features `main_v45`, their propagation `main_v59`, the layer's
    weights and bias. -/
abbrev G1 (c : Dev nD) : S100000x128.Idx → EReal :=
  Cheb.layer (n := 100000) (V c main_v45) (V c main_v59) (V c main_arg5) (V c main_arg6) (V c main_arg7)

/-- What grid point `t` writes back is its tile of rows of the layer of the whole arrays: the tile's rows of the two
    feature matrices are rows `5000·t + p` of the arrays, the weights and the bias are read whole. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  rw [pay1_layer]
  obtain ⟨e00, e01, e10, e11, e20, e21, e30, e31, e40, e51⟩ := idx_facts1 t
  funext j
  show Cheb.layer (n := 5000) (iblk1 V c 0 t) (iblk1 V c 1 t) (iblk1 V c 2 t) (iblk1 V c 3 t) (iblk1 V c 4 t) j
      = Cheb.layer (n := 100000) (V c main_v45) (V c main_v59) (V c main_arg5) (V c main_arg6) (V c main_arg7) (((cfg1.win 5).blk t).view.emb j)
  refine Cheb.layer_tile _ _ _ _ _ _ _ _ _ _ j _ (fun k => ?_) (fun k => ?_) (fun k => ?_) (fun k => ?_) ?_
  · show V c main_v45 (((cfg1.win 0).blk t).view.emb (ix2 (j 0) k)) = V c main_v45 (ix2 ((((cfg1.win 5).blk t).view.emb j) 0) k)
    refine congrArg (V c main_v45) (funext fun a => Fin.ext ?_)
    match a with
    | ⟨0, _⟩ => show win1_0.index t (0 : Fin 2) * 5000 + 1 * (j 0).val = win1_5.index t (0 : Fin 2) * 5000 + 1 * (j 0).val; rw [e00]
    | ⟨1, _⟩ => show win1_0.index t (1 : Fin 2) * 128 + 1 * k.val = k.val; rw [e01]; omega
  · show V c main_v59 (((cfg1.win 1).blk t).view.emb (ix2 (j 0) k)) = V c main_v59 (ix2 ((((cfg1.win 5).blk t).view.emb j) 0) k)
    refine congrArg (V c main_v59) (funext fun a => Fin.ext ?_)
    match a with
    | ⟨0, _⟩ => show win1_1.index t (0 : Fin 2) * 5000 + 1 * (j 0).val = win1_5.index t (0 : Fin 2) * 5000 + 1 * (j 0).val; rw [e10]
    | ⟨1, _⟩ => show win1_1.index t (1 : Fin 2) * 128 + 1 * k.val = k.val; rw [e11]; omega
  · show V c main_arg5 (((cfg1.win 2).blk t).view.emb (ix2 k (j 1))) = V c main_arg5 (ix2 k ((((cfg1.win 5).blk t).view.emb j) 1))
    refine congrArg (V c main_arg5) (funext fun a => Fin.ext ?_)
    match a with
    | ⟨0, _⟩ => show win1_2.index t (0 : Fin 2) * 128 + 1 * k.val = k.val; rw [e20]; omega
    | ⟨1, _⟩ => show win1_2.index t (1 : Fin 2) * 128 + 1 * (j 1).val = win1_5.index t (1 : Fin 2) * 128 + 1 * (j 1).val; rw [e21, e51]
  · show V c main_arg6 (((cfg1.win 3).blk t).view.emb (ix2 k (j 1))) = V c main_arg6 (ix2 k ((((cfg1.win 5).blk t).view.emb j) 1))
    refine congrArg (V c main_arg6) (funext fun a => Fin.ext ?_)
    match a with
    | ⟨0, _⟩ => show win1_3.index t (0 : Fin 2) * 128 + 1 * k.val = k.val; rw [e30]; omega
    | ⟨1, _⟩ => show win1_3.index t (1 : Fin 2) * 128 + 1 * (j 1).val = win1_5.index t (1 : Fin 2) * 128 + 1 * (j 1).val; rw [e31, e51]
  · show V c main_arg7 (((cfg1.win 4).blk t).view.emb (ix1 (j 1))) = V c main_arg7 (ix1 ((((cfg1.win 5).blk t).view.emb j) 1))
    refine congrArg (V c main_arg7) (funext fun a => Fin.ext ?_)
    match a with
    | ⟨0, _⟩ => show win1_4.index t (0 : Fin 1) * 128 + 1 * (j 1).val = win1_5.index t (1 : Fin 2) * 128 + 1 * (j 1).val; rw [e40, e51]

/-- An entry of the array is in point `t`'s tile iff its row and column are in the tile's ranges. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v60).slice (win1_5.rect t)).set ↔ _
  rw [View.set_slice_whole, Rect.mem_set_unit]
  exact Iff.rfl

/-- The tiles cover the array: row `r` lies in the tile of point `r / 5000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After region 1 its output array holds the layer of the arrays it found at its entry. -/
theorem final1 (c : Dev nD) : (dat1 V c).arrAt 5 cfg1.N = G1 V c :=
  (dat1 V c).arrAt_eq_of_cover 5 (G1 V c) (fun t _ => flushed1 V c t) cover1

end Cert.KernelIdeal.Layers

end
-- ==== Proof.RefStages.lean ====
/-
  The reference program, cut where its mathematics cuts: two applications of one layer, each fed by one propagation.

  From the edge list alone the reference computes a weight per edge: with `deg` the number of non-loop edges leaving a
  node, the weight of an edge `s → d` is `deg(s)^(-1/2) · deg(d)^(-1/2)` (a node without such edges counting as zero), and
  zero on a self loop. Then twice the same two steps:
    * PROPAGATE a node-feature matrix `h`: gather the source node's row for every edge, scale it by the edge's weight,
      add the scaled rows into the destination nodes' rows, negate — `propagate h ei`;
    * apply the LAYER: `max (h·W0 + (propagate h ei)·W1 + b, 0)`.
  The functions below spell these steps with the reference program's own operations and dimension records, one
  definition per mathematical quantity; the layer's host spelling is then read at an entry as `Cheb.layer`.
-/
import proofs.«112114_j34772055229173_1_alg».proof.Proof.Gen.ReferenceIdeal
import proofs.«112114_j34772055229173_1_alg».proof.Proof.Layer
import proofs.«112114_j34772055229173_1_alg».proof.Proof.LibPlainDot
import Idealize.ShloMosaic.Lib.Pipeline.Value

noncomputable section

namespace Cert.ReferenceIdeal.Stages

open Cert.ReferenceIdeal Cert.ReferenceIdeal.Gen
open Idealize.ShloMosaic Idealize.ShloMosaic.TcCoe Idealize.ShloMosaic.ValueIdx

abbrev Edges : Type := IVec S2x640000 32
abbrev EdgeIx : Type := IVec S640000 32
abbrev EdgeVal : Type := FVec Ideal S640000 .f32
abbrev NodeVal : Type := FVec Ideal S100000 .f32
abbrev Feat : Type := FVec Ideal S100000x128 .f32
abbrev Wt : Type := FVec Ideal S128x128 .f32
abbrev Bias : Type := FVec Ideal S128 .f32

/-- The edges' source nodes: row 0 of the edge list. -/
def src (ei : Edges) : EdgeIx :=
  shapeCast _ (extractStridedSlice S1x640000 ![0, 0] ei slices_S2x640000_S1x640000_0_0) shapeCasts_S1x640000_S640000

/-- The edges' destination nodes: row 1 of the edge list. -/
def dst (ei : Edges) : EdgeIx :=
  shapeCast _ (extractStridedSlice S1x640000 ![1, 0] ei slices_S2x640000_S1x640000_1_0) shapeCasts_S1x640000_S640000

/-- One on an edge between two different nodes, zero on a self loop. -/
def offLoop (ei : Edges) : EdgeVal := uitofp .f32 (cmpi .ne (src ei) (dst ei))

/-- A node's degree: the number of non-loop edges that leave it. -/
def degree (ei : Edges) : NodeVal :=
  Host.scatterAdd scatter_S100000_S640000x1_S640000_n_0_0_1
    (broadcastInDim S100000 ![] bcast_S_S100000 (constant (F := Ideal) S_ .f32 0x00000000#32))
    (broadcastInDim S640000x1 ![0] bcast_S640000_S640000x1_0 (src ei)) (offLoop ei)

/-- The choice between two node values by a node test, the alternative a constant laid over all nodes. -/
def invSqrtDegOf (positive : IVec S100000 1) (rs : NodeVal) (z : FVec Ideal S_ .f32) : NodeVal :=
  select positive rs (broadcastInDim S100000 ![] bcast_S_S100000 (id z))

/-- `deg^(-1/2)` where the degree is positive (taken of `max deg 1`), zero elsewhere. -/
def invSqrtDeg (ei : Edges) : NodeVal :=
  invSqrtDegOf (cmpf (F := Ideal) .ogt (degree ei) (broadcastInDim S100000 ![] bcast_S_S100000 (constant (F := Ideal) S_ .f32 0x00000000#32)))
    (Host.rsqrt (maximumf (degree ei) (broadcastInDim S100000 ![] bcast_S_S100000 (constant (F := Ideal) S_ .f32 0x3F800000#32))))
    (constant (F := Ideal) S_ .f32 0x00000000#32)

/-- A node index read the way the host's indexing reads it: a negative one counts from the end. -/
def wrap (v : EdgeIx) : EdgeIx :=
  select (cmpi .slt v (broadcastInDim S640000 ![] bcast_S_S640000 (constantI S_ 32 0#32)))
    (addi v (broadcastInDim S640000 ![] bcast_S_S640000 (constantI S_ 32 100000#32))) v

/-- The product of a node value at an edge's two ends with an edge value: the shape of the edge weight. -/
def edgeWeightOf (inv : NodeVal) (s d : EdgeIx) (ol : EdgeVal) : EdgeVal :=
  mulf (mulf
      (Host.gather gather_S100000_S640000x1_S640000_n_0_n_n_0_1_1 inv
        (broadcastInDim S640000x1 ![0] bcast_S640000_S640000x1_0 (wrap s)))
      (Host.gather gather_S100000_S640000x1_S640000_n_0_n_n_0_1_1 inv
        (broadcastInDim S640000x1 ![0] bcast_S640000_S640000x1_0 (wrap d))))
    ol

/-- The edge's weight `deg(s)^(-1/2) · deg(d)^(-1/2)`, zero on a self loop. -/
def edgeWeight (ei : Edges) : EdgeVal := edgeWeightOf (invSqrtDeg ei) (src ei) (dst ei) (offLoop ei)

/-- Propagation along edges given by their ends `s`, `d` and weights `w`, negated: row `d` of the result is minus the
    sum, over the edges into `d`, of the edge's weight times row `s` of `h`. -/
def propagateOf (h : Feat) (s d : EdgeIx) (w : EdgeVal) : Feat :=
  Host.negf (Host.scatterAdd scatter_S100000x128_S640000x1_S640000x128_1_0_0_1
    (broadcastInDim S100000x128 ![] bcast_S_S100000x128 (constant (F := Ideal) S_ .f32 0x00000000#32))
    (broadcastInDim S640000x1 ![0] bcast_S640000_S640000x1_0 d)
    (mulf
      (broadcastInDim S640000x128 ![0, 1] bcast_S640000x1_S640000x128_0_1
        (broadcastInDim S640000x1 ![0] bcast_S640000_S640000x1_0 w))
      (Host.gather gather_S100000x128_S640000x1_S640000x128_1_0_n_n_0_1_1128 h
        (broadcastInDim S640000x1 ![0] bcast_S640000_S640000x1_0 (wrap s)))))

/-- The propagation of a node-feature matrix along the graph's weighted edges, negated. -/
def propagate (h : Feat) (ei : Edges) : Feat := propagateOf h (src ei) (dst ei) (edgeWeight ei)

/-- The bias laid along every row. -/
def rowBias (b : Bias) : Feat :=
  broadcastInDim S100000x128 ![0, 1] bcast_S1x128_S100000x128_0_1 (broadcastInDim S1x128 ![1] bcast_S128_S1x128_1 b)

/-- The zero matrix. -/
def zeros : Feat := broadcastInDim S100000x128 ![] bcast_S_S100000x128 (constant (F := Ideal) S_ .f32 0x00000000#32)

/-- One layer in the host's spelling: two matrix products, their sum, the bias added along the rows, the maximum with
    zero. -/
def layerH (x t : Feat) (w0 w1 : Wt) (b : Bias) : Feat :=
  maximumf (addf (addf (Host.dotGeneral dot_S100000x128_S128x128_S100000x128_1_0_0_1_n_n none x w0)
      (Host.dotGeneral dot_S100000x128_S128x128_S100000x128_1_0_0_1_n_n none t w1)) (rowBias b)) zeros

/-- The hidden features: the layer of the input features and their propagation. -/
def hidden (x : Feat) (ei : Edges) (w0 w1 : Wt) (b : Bias) : Feat := layerH x (propagate x ei) w0 w1 b

/-- The two-layer network. -/
def twoLayers (x : Feat) (ei : Edges) (w10 w11 : Wt) (b1 : Bias) (w20 w21 : Wt) (b2 : Bias) : Feat :=
  layerH (hidden x ei w10 w11 b1) (propagate (hidden x ei w10 w11 b1) ei) w20 w21 b2

/-! ## The layer's host spelling at an entry -/

abbrev rowOf (i : S100000x128.Idx) : S1x128.Idx := fun a => match a with
  | ⟨0, _⟩ => ⟨0, Nat.one_pos⟩
  | ⟨1, _⟩ => ⟨(i 1).val, (i 1).isLt⟩
abbrev colOf (j : S1x128.Idx) : S128.Idx := fun a => match a with
  | ⟨0, _⟩ => ⟨(j 1).val, (j 1).isLt⟩

/-- The bias laid along the rows, read at an entry: the bias at the entry's column. -/
theorem rowBias_apply (b : Bias) (i : S100000x128.Idx) : rowBias b i = b (ix1 (i 1)) := by
  unfold rowBias
  rw [broadcastInDim_apply _ bcast_S1x128_S100000x128_0_1 _ i (rowOf i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)]),
    broadcastInDim_apply _ bcast_S128_S1x128_1 b (rowOf i) (colOf (rowOf i)) (fun a => match a with
      | ⟨0, _⟩ => by show (i 1).val = if (128 : Nat) = 1 then 0 else (i 1).val; rw [if_neg (by decide)])]
  exact congrArg b (funext fun a => match a with | ⟨0, _⟩ => rfl)

/-- The zero matrix read at an entry. -/
theorem zeros_apply (i : S100000x128.Idx) : zeros i = Cheb.zeroWord := by
  unfold zeros
  rw [broadcastInDim_apply _ bcast_S_S100000x128 _ i (fun a => a.elim0) (fun a => a.elim0)]
  rfl

/-- The layer in the host's spelling is, entry by entry, `Cheb.layer`. -/
theorem layerH_eq (x t : Feat) (w0 w1 : Wt) (b : Bias) :
    layerH x t w0 w1 b = Cheb.layer (n := 100000) x t w0 w1 b := by
  funext i
  unfold layerH Cheb.layer
  rw [maximumf_apply, addf_apply, addf_apply,
    PlainDot.hostDot_apply dot_S100000x128_S128x128_S100000x128_1_0_0_1_n_n rfl,
    PlainDot.hostDot_apply dot_S100000x128_S128x128_S100000x128_1_0_0_1_n_n rfl, rowBias_apply, zeros_apply]

end Cert.ReferenceIdeal.Stages

end
-- ==== Proof.LibTypedRef.lean ====
/-
  Typed references and lines of host operations: three general facts.

  An operation of a module-local function is spelt over typed references: its function is stated at the value's type
  `T` and moved to the buffer's own type along the reference's proof that the two types agree (`toBuf`), and an
  operand's contents are moved the other way (`ofBuf`). Both moves are the identity, since the proof they move along
  can only be reflexivity; the lemmas here say so for any typed reference, by taking the reference apart:

  * `ofBuf_toBuf`: there and back is the identity (what stands between two operations of a line that is read back);
  * `toBuf_eq`: a moved value equals contents of the buffer that are the same value (the outermost move);
  * `after_append`: the contents after two lines in a row are those after their concatenation, so a long line can be
    read back stretch by stretch.
-/
import Idealize.ShloMosaic.Lib.StableHlo.Run

noncomputable section

namespace Idealize.ShloMosaic.TypedRef

open Idealize.ShloMosaic Idealize.ShloMosaic.StableHlo

variable {nD : Nat} {τ : Topo} {sig : RefSig} {Val : EltTy → Type}

/-- A value moved to the buffer's type and back is the value. -/
theorem ofBuf_toBuf {T : BufTy} (x : TRef sig T) (v : T.Contents Val) : x.ofBuf (x.toBuf v) = v := by
  obtain ⟨r, rfl, h2, h3⟩ := x
  rfl

/-- A value moved to the buffer's type is any contents of the buffer that are the same value. -/
theorem toBuf_eq {T : BufTy} (x : TRef sig T) (v : T.Contents Val) (w : x.ref.ty.Contents Val) (h : HEq v w) :
    x.toBuf v = w := by
  obtain ⟨r, rfl, h2, h3⟩ := x
  exact eq_of_heq h

/-- The contents after a line and then another are the contents after their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

end Idealize.ShloMosaic.TypedRef

end
-- ==== Proof.KernelFold.lean ====
/-
  The tiled program's buffer contents, stretch by stretch, in the reference's words.

  The program's host operations before the first region are, operation for operation, the reference's: the edge
  ends, the edge weights, and the propagation of the input features. The first region then leaves the layer of
  (features, propagation) — the hidden features. The host operations between the regions propagate the hidden features
  with the SAME edge ends and edge weights (the compiler kept one copy), and the second region leaves the layer of
  (hidden, its propagation): the two-layer network.

  Each stretch of host operations is first read from ARBITRARY contents `V` of the buffers it starts from — which
  buffers it reads, and by which of the reference's functions (`Stages`) it combines them —, and the stretches are
  then chained along the generated fold of buffer contents (`Gen.W0` … `Gen.W6`). The functions differ from this
  program's own spelling only in which program's copy of a dimension record they name. The one outlined function
  (the choice `where (deg > 0, …, 0)`) moves its values between a buffer's type and the value's type; both moves are
  the identity (`TypedRef.ofBuf_toBuf`, `TypedRef.toBuf_eq`).
-/
import proofs.«112114_j34772055229173_1_alg».proof.Proof.Gen.KernelIdeal.Frame
import proofs.«112114_j34772055229173_1_alg».proof.Proof.KernelTiles
import proofs.«112114_j34772055229173_1_alg».proof.Proof.RefStages
import proofs.«112114_j34772055229173_1_alg».proof.Proof.LibTypedRef

set_option maxRecDepth 16384
set_option maxHeartbeats 4000000

noncomputable section

namespace Cert.KernelIdeal.Fold

open Cert.KernelIdeal Cert.KernelIdeal.Gen Cert.ReferenceIdeal.Stages
open Idealize.ShloMosaic Idealize.ShloMosaic.TcCoe Idealize.ShloMosaic.StableHlo Idealize.ShloMosaic.TypedRef
open Idealize.SL Idealize.SL.Sem

/-! ## Each stretch of host operations, from arbitrary contents -/

section Stretches

variable (V : Valuation τ sig (Elt Ideal))

/-! ### The first stretch: edge ends, the self-loop mask, the degree test and the inverse square root -/

theorem s1_src : StableHlo.after hostOps0 V (Proc.devRef .tc main_v1) = src (V (Proc.devRef .tc main_arg1)) := by
  after_results_simp
  rfl
theorem s1_dst : StableHlo.after hostOps0 V (Proc.devRef .tc main_v3) = dst (V (Proc.devRef .tc main_arg1)) := by
  after_results_simp
  rfl
theorem s1_offLoop : StableHlo.after hostOps0 V (Proc.devRef .tc main_v5) = offLoop (V (Proc.devRef .tc main_arg1)) := by
  after_results_simp
  rfl
theorem s1_positive : StableHlo.after hostOps0 V (Proc.devRef .tc main_v10)
    = cmpf (F := Ideal) .ogt (degree (V (Proc.devRef .tc main_arg1)))
        (broadcastInDim S100000 ![] bcast_S_S100000 (constant (F := Ideal) S_ .f32 0x00000000#32)) := by
  after_results_simp
  rfl
theorem s1_rsqrt : StableHlo.after hostOps0 V (Proc.devRef .tc main_v13)
    = Host.rsqrt (maximumf (degree (V (Proc.devRef .tc main_arg1)))
        (broadcastInDim S100000 ![] bcast_S_S100000 (constant (F := Ideal) S_ .f32 0x3F800000#32))) := by
  after_results_simp
  rfl
theorem s1_zero : StableHlo.after hostOps0 V (Proc.devRef .tc main_cst_2) = constant (F := Ideal) S_ .f32 0x00000000#32 := by
  after_results_simp
theorem s1_keep_arg0 : StableHlo.after hostOps0 V (Proc.devRef .tc main_arg0) = V (Proc.devRef .tc main_arg0) := by
  after_results_simp
theorem s1_keep_arg1 : StableHlo.after hostOps0 V (Proc.devRef .tc main_arg1) = V (Proc.devRef .tc main_arg1) := by
  after_results_simp
theorem s1_keep_arg2 : StableHlo.after hostOps0 V (Proc.devRef .tc main_arg2) = V (Proc.devRef .tc main_arg2) := by
  after_results_simp
theorem s1_keep_arg3 : StableHlo.after hostOps0 V (Proc.devRef .tc main_arg3) = V (Proc.devRef .tc main_arg3) := by
  after_results_simp
theorem s1_keep_arg4 : StableHlo.after hostOps0 V (Proc.devRef .tc main_arg4) = V (Proc.devRef .tc main_arg4) := by
  after_results_simp
theorem s1_keep_arg5 : StableHlo.after hostOps0 V (Proc.devRef .tc main_arg5) = V (Proc.devRef .tc main_arg5) := by
  after_results_simp
theorem s1_keep_arg6 : StableHlo.after hostOps0 V (Proc.devRef .tc main_arg6) = V (Proc.devRef .tc main_arg6) := by
  after_results_simp
theorem s1_keep_arg7 : StableHlo.after hostOps0 V (Proc.devRef .tc main_arg7) = V (Proc.devRef .tc main_arg7) := by
  after_results_simp

/-! ### The outlined choice: the inverse square root where the degree is positive, zero elsewhere -/

theorem s2_inv : StableHlo.after hostOps0_1 V (Proc.devRef .tc main_v14)
    = invSqrtDegOf (V (Proc.devRef .tc main_v10)) (V (Proc.devRef .tc main_v13)) (V (Proc.devRef .tc main_cst_2)) := by
  after_results_simp
  simp only [ofBuf_toBuf]
  refine toBuf_eq _ _ _ (heq_of_eq ?_)
  rfl
theorem s2_keep_v1 : StableHlo.after hostOps0_1 V (Proc.devRef .tc main_v1) = V (Proc.devRef .tc main_v1) := by
  after_results_simp
theorem s2_keep_v3 : StableHlo.after hostOps0_1 V (Proc.devRef .tc main_v3) = V (Proc.devRef .tc main_v3) := by
  after_results_simp
theorem s2_keep_v5 : StableHlo.after hostOps0_1 V (Proc.devRef .tc main_v5) = V (Proc.devRef .tc main_v5) := by
  after_results_simp
theorem s2_keep_arg0 : StableHlo.after hostOps0_1 V (Proc.devRef .tc main_arg0) = V (Proc.devRef .tc main_arg0) := by
  after_results_simp
theorem s2_keep_arg1 : StableHlo.after hostOps0_1 V (Proc.devRef .tc main_arg1) = V (Proc.devRef .tc main_arg1) := by
  after_results_simp
theorem s2_keep_arg2 : StableHlo.after hostOps0_1 V (Proc.devRef .tc main_arg2) = V (Proc.devRef .tc main_arg2) := by
  after_results_simp
theorem s2_keep_arg3 : StableHlo.after hostOps0_1 V (Proc.devRef .tc main_arg3) = V (Proc.devRef .tc main_arg3) := by
  after_results_simp
theorem s2_keep_arg4 : StableHlo.after hostOps0_1 V (Proc.devRef .tc main_arg4) = V (Proc.devRef .tc main_arg4) := by
  after_results_simp
theorem s2_keep_arg5 : StableHlo.after hostOps0_1 V (Proc.devRef .tc main_arg5) = V (Proc.devRef .tc main_arg5) := by
  after_results_simp
theorem s2_keep_arg6 : StableHlo.after hostOps0_1 V (Proc.devRef .tc main_arg6) = V (Proc.devRef .tc main_arg6) := by
  after_results_simp
theorem s2_keep_arg7 : StableHlo.after hostOps0_1 V (Proc.devRef .tc main_arg7) = V (Proc.devRef .tc main_arg7) := by
  after_results_simp

/-! ### The third stretch: the edge weights and the propagation of the features in argument 0 -/

theorem s3_weight : StableHlo.after hostOps0_2 V (Proc.devRef .tc main_v30)
    = edgeWeightOf (V (Proc.devRef .tc main_v14)) (V (Proc.devRef .tc main_v1)) (V (Proc.devRef .tc main_v3))
        (V (Proc.devRef .tc main_v5)) := by
  after_results_simp
  rfl
theorem s3_prop : StableHlo.after hostOps0_2 V (Proc.devRef .tc main_v44)
    = propagateOf (V (Proc.devRef .tc main_arg0)) (V (Proc.devRef .tc main_v1)) (V (Proc.devRef .tc main_v3))
        (edgeWeightOf (V (Proc.devRef .tc main_v14)) (V (Proc.devRef .tc main_v1)) (V (Proc.devRef .tc main_v3))
          (V (Proc.devRef .tc main_v5))) := by
  after_results_simp
  rfl
theorem s3_keep_v1 : StableHlo.after hostOps0_2 V (Proc.devRef .tc main_v1) = V (Proc.devRef .tc main_v1) := by
  after_results_simp
theorem s3_keep_v3 : StableHlo.after hostOps0_2 V (Proc.devRef .tc main_v3) = V (Proc.devRef .tc main_v3) := by
  after_results_simp
theorem s3_keep_arg0 : StableHlo.after hostOps0_2 V (Proc.devRef .tc main_arg0) = V (Proc.devRef .tc main_arg0) := by
  after_results_simp
theorem s3_keep_arg1 : StableHlo.after hostOps0_2 V (Proc.devRef .tc main_arg1) = V (Proc.devRef .tc main_arg1) := by
  after_results_simp
theorem s3_keep_arg2 : StableHlo.after hostOps0_2 V (Proc.devRef .tc main_arg2) = V (Proc.devRef .tc main_arg2) := by
  after_results_simp
theorem s3_keep_arg3 : StableHlo.after hostOps0_2 V (Proc.devRef .tc main_arg3) = V (Proc.devRef .tc main_arg3) := by
  after_results_simp
theorem s3_keep_arg4 : StableHlo.after hostOps0_2 V (Proc.devRef .tc main_arg4) = V (Proc.devRef .tc main_arg4) := by
  after_results_simp
theorem s3_keep_arg5 : StableHlo.after hostOps0_2 V (Proc.devRef .tc main_arg5) = V (Proc.devRef .tc main_arg5) := by
  after_results_simp
theorem s3_keep_arg6 : StableHlo.after hostOps0_2 V (Proc.devRef .tc main_arg6) = V (Proc.devRef .tc main_arg6) := by
  after_results_simp
theorem s3_keep_arg7 : StableHlo.after hostOps0_2 V (Proc.devRef .tc main_arg7) = V (Proc.devRef .tc main_arg7) := by
  after_results_simp

/-! ### The stretch between the regions: the propagation of the first region's output -/

theorem s4_prop : StableHlo.after hostOps1 V (Proc.devRef .tc main_v59)
    = propagateOf (V (Proc.devRef .tc main_v45)) (V (Proc.devRef .tc main_v1)) (V (Proc.devRef .tc main_v3))
        (V (Proc.devRef .tc main_v30)) := by
  after_results_simp
  rfl
theorem s4_keep_v45 : StableHlo.after hostOps1 V (Proc.devRef .tc main_v45) = V (Proc.devRef .tc main_v45) := by
  after_results_simp
theorem s4_keep_arg5 : StableHlo.after hostOps1 V (Proc.devRef .tc main_arg5) = V (Proc.devRef .tc main_arg5) := by
  after_results_simp
theorem s4_keep_arg6 : StableHlo.after hostOps1 V (Proc.devRef .tc main_arg6) = V (Proc.devRef .tc main_arg6) := by
  after_results_simp
theorem s4_keep_arg7 : StableHlo.after hostOps1 V (Proc.devRef .tc main_arg7) = V (Proc.devRef .tc main_arg7) := by
  after_results_simp

end Stretches

variable (m : (ℓ : Loc nD τ sig) → Buf (Elt Ideal) ℓ) (ρ : Dev nD → PrngReg) (c : Dev nD)

/-! ## Before the first region -/

/-- The edges' source nodes. -/
theorem W3_src : W3 m ρ c (Proc.devRef .tc main_v1) = src (m ((c : Thread nD τ).loc main_arg1)) := by
  show StableHlo.after hostOps0_2 (StableHlo.after hostOps0_1 (StableHlo.after hostOps0 (W0 m ρ c))) (Proc.devRef .tc main_v1) = _
  rw [s3_keep_v1, s2_keep_v1, s1_src]

/-- The edges' destination nodes. -/
theorem W3_dst : W3 m ρ c (Proc.devRef .tc main_v3) = dst (m ((c : Thread nD τ).loc main_arg1)) := by
  show StableHlo.after hostOps0_2 (StableHlo.after hostOps0_1 (StableHlo.after hostOps0 (W0 m ρ c))) (Proc.devRef .tc main_v3) = _
  rw [s3_keep_v3, s2_keep_v3, s1_dst]

/-- The edge weights. -/
theorem W3_weight : W3 m ρ c (Proc.devRef .tc main_v30) = edgeWeight (m ((c : Thread nD τ).loc main_arg1)) := by
  show StableHlo.after hostOps0_2 (StableHlo.after hostOps0_1 (StableHlo.after hostOps0 (W0 m ρ c))) (Proc.devRef .tc main_v30) = _
  rw [s3_weight, s2_inv, s2_keep_v1, s2_keep_v3, s2_keep_v5, s1_positive, s1_rsqrt, s1_zero, s1_src, s1_dst, s1_offLoop]
  rfl

/-- The propagation of the input features. -/
theorem W3_prop : W3 m ρ c (Proc.devRef .tc main_v44)
    = propagate (m ((c : Thread nD τ).loc main_arg0)) (m ((c : Thread nD τ).loc main_arg1)) := by
  show StableHlo.after hostOps0_2 (StableHlo.after hostOps0_1 (StableHlo.after hostOps0 (W0 m ρ c))) (Proc.devRef .tc main_v44) = _
  rw [s3_prop, s2_inv, s2_keep_v1, s2_keep_v3, s2_keep_v5, s2_keep_arg0, s1_positive, s1_rsqrt, s1_zero, s1_src, s1_dst, s1_offLoop, s1_keep_arg0]
  rfl

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  rw [s3_keep_arg0, s2_keep_arg0, s1_keep_arg0]

theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  rw [s3_keep_arg2, s2_keep_arg2, s1_keep_arg2]

theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  rw [s3_keep_arg3, s2_keep_arg3, s1_keep_arg3]

theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  rw [s3_keep_arg4, s2_keep_arg4, s1_keep_arg4]

theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  rw [s3_keep_arg5, s2_keep_arg5, s1_keep_arg5]

theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  rw [s3_keep_arg6, s2_keep_arg6, s1_keep_arg6]

theorem W3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  rw [s3_keep_arg7, s2_keep_arg7, s1_keep_arg7]

/-! ## The first region leaves the hidden features -/

/-- After the first region its output array holds the hidden features: the layer of the input features and their
    propagation, in the host's spelling by `layerH_eq`. -/
theorem W4_hidden : W4 m ρ c (Proc.devRef .tc main_v45)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_arr m ρ c 5).trans ((Layers.final0 (V3 m ρ) c).trans ?_)
  show Cheb.layer (n := 100000) (W3 m ρ c (Proc.devRef .tc main_arg0)) (W3 m ρ c (Proc.devRef .tc main_v44))
    (W3 m ρ c (Proc.devRef .tc main_arg2)) (W3 m ρ c (Proc.devRef .tc main_arg3)) (W3 m ρ c (Proc.devRef .tc main_arg4)) = _
  rw [W3_arg0, W3_prop, W3_arg2, W3_arg3, W3_arg4]
  exact (layerH_eq _ _ _ _ _).symm

/-! ## Between the regions: the propagation of the hidden features, with the same edge ends and weights -/

/-- The propagation of the hidden features. -/
theorem W5_prop : W5 m ρ c (Proc.devRef .tc main_v59)
    = propagate (hidden (m ((c : Thread nD τ).loc main_arg0)) (m ((c : Thread nD τ).loc main_arg1)) (m ((c : Thread nD τ).loc main_arg2))
        (m ((c : Thread nD τ).loc main_arg3)) (m ((c : Thread nD τ).loc main_arg4))) (m ((c : Thread nD τ).loc main_arg1)) := by
  show StableHlo.after hostOps1 (W4 m ρ c) (Proc.devRef .tc main_v59) = _
  rw [s4_prop, W4_of_ne m ρ c main_v30 (by decide), W4_of_ne m ρ c main_v1 (by decide), W4_of_ne m ρ c main_v3 (by decide),
    W3_weight, W3_src, W3_dst, W4_hidden]
  rfl

/-- The hidden features are still in place when the second region is entered. -/
theorem W5_hidden : W5 m ρ c (Proc.devRef .tc main_v45)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  show StableHlo.after hostOps1 (W4 m ρ c) (Proc.devRef .tc main_v45) = _
  rw [s4_keep_v45]
  exact W4_hidden m ρ c

theorem W5_arg5 : W5 m ρ c (Proc.devRef .tc main_arg5) = m ((c : Thread nD τ).loc main_arg5) := by
  show StableHlo.after hostOps1 (W4 m ρ c) (Proc.devRef .tc main_arg5) = _
  rw [s4_keep_arg5, W4_of_ne m ρ c main_arg5 (by decide)]
  exact W3_arg5 m ρ c

theorem W5_arg6 : W5 m ρ c (Proc.devRef .tc main_arg6) = m ((c : Thread nD τ).loc main_arg6) := by
  show StableHlo.after hostOps1 (W4 m ρ c) (Proc.devRef .tc main_arg6) = _
  rw [s4_keep_arg6, W4_of_ne m ρ c main_arg6 (by decide)]
  exact W3_arg6 m ρ c

theorem W5_arg7 : W5 m ρ c (Proc.devRef .tc main_arg7) = m ((c : Thread nD τ).loc main_arg7) := by
  show StableHlo.after hostOps1 (W4 m ρ c) (Proc.devRef .tc main_arg7) = _
  rw [s4_keep_arg7, W4_of_ne m ρ c main_arg7 (by decide)]
  exact W3_arg7 m ρ c

/-! ## The second region leaves the two-layer network -/

/-- The program's result buffer, at the end of the fold, holds the two-layer network of the argument arrays. -/
theorem W6_result : W6 m ρ c (Proc.devRef .tc main_v60)
    = twoLayers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W6_arr m ρ c 5).trans ((Layers.final1 (V5 m ρ) c).trans ?_)
  show Cheb.layer (n := 100000) (W5 m ρ c (Proc.devRef .tc main_v45)) (W5 m ρ c (Proc.devRef .tc main_v59))
    (W5 m ρ c (Proc.devRef .tc main_arg5)) (W5 m ρ c (Proc.devRef .tc main_arg6)) (W5 m ρ c (Proc.devRef .tc main_arg7)) = _
  rw [W5_hidden, W5_prop, W5_arg5, W5_arg6, W5_arg7]
  exact (layerH_eq _ _ _ _ _).symm

end Cert.KernelIdeal.Fold

end
-- ==== Proof.RefResult.lean ====
/-
  The reference's result, regrouped: the composed term its run ends at is the two-layer network of the arguments.

  The run states the result as one long term, every operation applied to the terms of its operands (the edge weights
  spelt out once per use). Grouped by quantity — edge ends, edge weights, propagation, layer — that term is
  `Stages.twoLayers`; the regrouping is a definitional unfolding.
-/
import proofs.«112114_j34772055229173_1_alg».proof.Proof.RefRunP
import proofs.«112114_j34772055229173_1_alg».proof.Proof.RefStages

noncomputable section

namespace Cert.ReferenceIdeal.Stages

open Cert.ReferenceIdeal Cert.ReferenceIdeal.Gen
open Idealize.ShloMosaic Idealize.ShloMosaic.TcCoe Idealize.SL.Sem

set_option maxRecDepth 8192 in
set_option maxHeartbeats 4000000 in
/-- The reference's result term is the two-layer network of the argument arrays. -/
theorem res_eq (m : (ℓ : Loc nD τ sig) → Buf (Elt Ideal) ℓ) (c : Dev nD) :
    Cert.ReferenceIdeal.ValueP.res_main_v72 (F := Ideal) m c
      = twoLayers (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.ValueP.res_main_v72
  rfl

end Cert.ReferenceIdeal.Stages

end
-- ==== Proof.lean ====
/-
  A two-layer Chebyshev graph convolution (order two), tiled, against its plain reference.

  Both programs compute, from node features `x` (100000 × 128), an edge list (2 × 640000) and two layers' weights and
  biases,
      h   = max (x·W1₀ + P(x)·W1₁ + b1, 0),        out = max (h·W2₀ + P(h)·W2₁ + b2, 0),
  where `P` propagates a feature matrix along the edges with the symmetric degree normalisation and negates
  (`Stages.propagate`). The reference does everything with whole-array host operations. The tiled program does the
  propagations with the same host operations and each layer's products, bias and maximum in a region tiled over
  twenty blocks of 5000 rows, the operands narrowed to 16 bits before the products — the identity on extended reals.

  The proof: an entry of a layer depends only on its own row of the two feature matrices, so the tiles' results are the
  rows of the whole layer (Proof/KernelLayer.lean, Proof/KernelTiles.lean); the host operations of the two programs are
  the same functions (Proof/KernelFold.lean, Proof/RefResult.lean); hence both runs end at `Stages.twoLayers` of the
  arguments. No law of arithmetic is needed — the sums, the additions and the maxima occur in the same order on both
  sides — and the inputs' finiteness is not used. The idealisation rewrote nothing, so `preserves` is trivial.
-/
import proofs.«112114_j34772055229173_1_alg».proof.Defs
import proofs.«112114_j34772055229173_1_alg».proof.Proof.Gen.Kernel
import proofs.«112114_j34772055229173_1_alg».proof.Proof.Gen.Kernel.Skeleton
import proofs.«112114_j34772055229173_1_alg».proof.Proof.Gen.Kernel.Launch
import proofs.«112114_j34772055229173_1_alg».proof.Proof.Gen.Kernel.Points
import proofs.«112114_j34772055229173_1_alg».proof.Proof.Gen.Kernel.Frame
import proofs.«112114_j34772055229173_1_alg».proof.Proof.Gen.KernelIdeal
import proofs.«112114_j34772055229173_1_alg».proof.Proof.Gen.KernelIdeal.Skeleton
import proofs.«112114_j34772055229173_1_alg».proof.Proof.Gen.KernelIdeal.Launch
import proofs.«112114_j34772055229173_1_alg».proof.Proof.Gen.KernelIdeal.Points
import proofs.«112114_j34772055229173_1_alg».proof.Proof.Gen.KernelIdeal.Frame
import proofs.«112114_j34772055229173_1_alg».proof.Proof.Gen.ReferenceIdeal
import proofs.«112114_j34772055229173_1_alg».proof.Proof.Gen.Pre_finite_inputs
import proofs.«112114_j34772055229173_1_alg».proof.Proof.KernelRun
import proofs.«112114_j34772055229173_1_alg».proof.Proof.KernelFold
import proofs.«112114_j34772055229173_1_alg».proof.Proof.RefResult
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Gen.frame m ρ

/-- So does the idealised program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end at the two-layer network of the (agreeing) arguments. -/
theorem algebraic : Cert.algebraic_KernelIdeal_ReferenceIdeal := by
  intro m ρ m' ρ' _ hagree
  refine ⟨fun c => Cert.ReferenceIdeal.Stages.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.W6_result m ρ c), (h c).2⟩)
      (Cert.KernelIdeal.Run.run_result m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.Stages.res_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
